-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S2x1600000 32) (main_arg2 : FVec F S64x64 .f32) (main_arg3 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S10000x64 : Shape := ⟨2, ![10000, 64]⟩

abbrev nBuf : Space → Nat
  | .hbm => 23
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S_, .f32⟩
  | .hbm, ⟨18, _⟩ => ⟨S100000x64, .f32⟩
  | .hbm, ⟨19, _⟩ => ⟨S1600000x1, .i32⟩
  | .hbm, ⟨20, _⟩ => ⟨S100000x64, .f32⟩
  | .hbm, ⟨21, _⟩ => ⟨S1x64, .f32⟩
  | .hbm, ⟨22, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v13) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 29
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S_, .f32⟩
  | .hbm, ⟨18, _⟩ => ⟨S100000x64, .f32⟩
  | .hbm, ⟨19, _⟩ => ⟨S1600000x1, .i32⟩
  | .hbm, ⟨20, _⟩ => ⟨S100000x64, .f32⟩
  | .hbm, ⟨21, _⟩ => ⟨S64x64, .f32⟩
  | .hbm, ⟨22, _⟩ => ⟨S100000x64, .f32⟩
  | .hbm, ⟨23, _⟩ => ⟨S1x64, .f32⟩
  | .hbm, ⟨24, _⟩ => ⟨S100000x64, .f32⟩
  | .hbm, ⟨25, _⟩ => ⟨S100000x64, .f32⟩
  | .hbm, ⟨26, _⟩ => ⟨S_, .f32⟩
  | .hbm, ⟨27, _⟩ => ⟨S100000x64, .f32⟩
  | .hbm, ⟨28, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_cst : Ref sig .tc := ⟨.hbm, 26, rfl⟩
abbrev main_call0_v0 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.DenseRelu.lean ====
/-
  The function both programs compute once the neighbour features have been summed into their destination rows:
  a dense layer followed by a rectifier. For an aggregate `a : [100000, 64]`, weights `w : [64, 64]` (row `n` holds
  the weights of output feature `n`) and a bias `b : [64]`, entry `(r, n)` of the result is

      max (∑ₖ a[r, k] · w[n, k] + b[n]) 0

  on the extended reals. The rectifier's zero is kept as the word both programs print (`0x00000000`), so it is the
  same term on either side and is never evaluated.
-/
import Idealize.ShloMosaic.PureOps.Ideal
import Idealize.ShloMosaic.Lib.ValueIdx

noncomputable section

namespace Cert.DenseRelu

open Idealize.ShloMosaic Idealize.ShloMosaic.ValueIdx

/-- One entry: row `r` of the aggregate against row `n` of the weights, plus the bias of feature `n`, rectified. -/
def entry (a : (⟨2, ![100000, 64]⟩ : Shape).Idx → EReal) (w : (⟨2, ![64, 64]⟩ : Shape).Idx → EReal)
    (b : (⟨1, ![64]⟩ : Shape).Idx → EReal) (r : Fin 100000) (n : Fin 64) : EReal :=
  max ((∑ k : Fin 64, a (ix2 r k) * w (ix2 n k)) + b (ix1 n)) (Ideal.ofBits .f32 0x00000000#32)

/-- The whole result array, index by index. -/
def dense (a : (⟨2, ![100000, 64]⟩ : Shape).Idx → EReal) (w : (⟨2, ![64, 64]⟩ : Shape).Idx → EReal)
    (b : (⟨1, ![64]⟩ : Shape).Idx → EReal) : (⟨2, ![100000, 64]⟩ : Shape).Idx → EReal :=
  fun i => entry a w b (i 0) (i 1)

/-- A bias handed over as a [1, 64] row, read as a vector of 64. -/
def rowAsVector (b : (⟨2, ![1, 64]⟩ : Shape).Idx → EReal) : (⟨1, ![64]⟩ : Shape).Idx → EReal := fun n => b (ix2 0 (n 0))

theorem dense_apply (a : (⟨2, ![100000, 64]⟩ : Shape).Idx → EReal) (w : (⟨2, ![64, 64]⟩ : Shape).Idx → EReal)
    (b : (⟨1, ![64]⟩ : Shape).Idx → EReal) (r : Fin 100000) (n : Fin 64) :
    dense a w b (ix2 r n) = entry a w b r n := rfl

/-- The same at any index whose coordinates are known. -/
theorem dense_of_coords (a : (⟨2, ![100000, 64]⟩ : Shape).Idx → EReal) (w : (⟨2, ![64, 64]⟩ : Shape).Idx → EReal)
    (b : (⟨1, ![64]⟩ : Shape).Idx → EReal) (i : (⟨2, ![100000, 64]⟩ : Shape).Idx) (r : Fin 100000) (n : Fin 64)
    (h0 : (i 0).val = r.val) (h1 : (i 1).val = n.val) : dense a w b i = entry a w b r n := by
  have e : i = ix2 r n := funext fun d => Fin.ext (by
    match d with
    | ⟨0, _⟩ => exact h0
    | ⟨1, _⟩ => exact h1)
  rw [e, dense_apply]

end Cert.DenseRelu

end
-- ==== Proof.ReferenceDense.lean ====
/-
  The reference's result, read index by index, is the dense-and-rectify function of ITS aggregate (the host's
  scatter-add of the gathered rows, kept as one unopened term), the weight matrix and the bias.
  The reference transposes the weights and contracts the aggregate's feature axis with the transposed matrix's row
  axis, so entry `(r, n)` of the product is `∑ₖ aggr[r, k] · W[n, k]`; the bias is broadcast along the rows; the
  rectifier is a maximum against a splat zero.
-/
import proofs.«118397_j3229815407284_1_alg».proof.Proof.Gen.ReferenceIdeal.Read
import proofs.«118397_j3229815407284_1_alg».proof.Proof.DenseRelu

noncomputable section

namespace Cert.ReferenceIdeal.Dense

open Cert.ReferenceIdeal Cert.ReferenceIdeal.Read Idealize.ShloMosaic Idealize.ShloMosaic.ValueIdx Cert.DenseRelu

/-- Entry `(r, n)` of the reference's last stage is the dense-and-rectify entry of the aggregate stage. -/
theorem result_eq (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal)) :
    val_main_v19 (F := Ideal) x0 x1 x2 x3 = dense (val_main_v13 (F := Ideal) x0 x1) x2 x3 := by
  funext i
  obtain ⟨r, n, rfl⟩ : ∃ (r : Fin 100000) (n : Fin 64), i = ix2 r n := ⟨i 0, i 1, eq_ix2 i⟩
  have el : ∀ k : Fin 64, lidx_main_v15 (ix2 r n) k = ix2 r k := fun k =>
    funext fun a => Fin.ext (by match a with | ⟨0, _⟩ => rfl | ⟨1, _⟩ => rfl)
  have er : ∀ k : Fin 64, idx_main_v14 (ridx_main_v15 (ix2 r n) k) = ix2 n k := fun k =>
    funext fun a => Fin.ext (by match a with | ⟨0, _⟩ => rfl | ⟨1, _⟩ => rfl)
  have eb : idx_main_v16 (idx_main_v17 (ix2 r n)) = ix1 n :=
    funext fun a => Fin.ext (by match a with | ⟨0, _⟩ => rfl)
  rw [val_main_v19_apply, val_main_v18_apply, val_main_v15_apply, val_main_v17_apply, val_main_v16_apply,
    val_main_call0_v0_apply, val_main_call0_cst_apply, dense_apply]
  simp only [val_main_v14_apply, el, er, eb, Ideal.maximumf_def, Ideal.addf_def, Ideal.ofBits_def]
  rfl

end Cert.ReferenceIdeal.Dense

end
-- ==== Proof.KernelEntry.lean ====
/-
  What the kernel body stores, read at one entry of its block.
  The body loads a block `x` of 10000 rows of the aggregate, the whole weight matrix `w` and the bias row `b`
  ([1, 64]); it transposes the weights, multiplies (`x · wᵀ` into a zero accumulator), adds the bias row to every
  row and takes the maximum with zero. The changes of float format on the way into the product are the identity on
  the extended reals. So entry `(p, q)` of what it stores is `max (∑ₖ x[p, k] · w[q, k] + b[0, q]) 0`.
-/
import proofs.«118397_j3229815407284_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Entry

open Cert.KernelIdeal Cert.KernelIdeal.Gen Idealize.ShloMosaic Idealize.ShloMosaic.ValueIdx

/-- The transposed weights at `(k, q)` are the weights at `(q, k)`. -/
theorem transposed_apply (y : FVec Ideal S64x64 .bf16) (k q : Fin 64) :
    transpose S64x64 [1, 0] y transposes_S64x64_p1_0_S64x64 (ix2 k q) = y (ix2 q k) :=
  transpose_apply [1, 0] y transposes_S64x64_p1_0_S64x64 (ix2 k q) (ix2 q k) (fun b => match b with
    | ⟨0, _⟩ => rfl
    | ⟨1, _⟩ => rfl)

/-- The bias row broadcast to every row of the block: entry `(p, q)` is the row's entry `(0, q)`. -/
theorem bias_rows_apply (y : FVec Ideal S1x64 .f32) (p : Fin 10000) (q : Fin 64) :
    broadcastTo S10000x64 y broadcasts_S1x64_S10000x64 (ix2 p q) = y (ix2 0 q) :=
  broadcastTo_apply y broadcasts_S1x64_S10000x64 (ix2 p q) (ix2 0 q) (fun a => match a with
    | ⟨0, _⟩ => by show (0 : Nat) = if (1 : Nat) = 1 then 0 else _; rw [if_pos rfl]
    | ⟨1, _⟩ => by show q.val = if (64 : Nat) = 1 then 0 else q.val; rw [if_neg (by decide)])

/-- Where the product reads its left operand for output entry `j` and contraction index `k`: row `j 0`, -/
theorem lhs_row (j : S10000x64.Idx) (k : dot_S10000x64_S64x64_S10000x64_1_0_0_1_n_n.contr.Idx) :
    (dot_S10000x64_S64x64_S10000x64_1_0_0_1_n_n.lhsIdx j k 0).val = (j 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl
/-- column `k`; -/
theorem lhs_col (j : S10000x64.Idx) (k : dot_S10000x64_S64x64_S10000x64_1_0_0_1_n_n.contr.Idx) :
    (dot_S10000x64_S64x64_S10000x64_1_0_0_1_n_n.lhsIdx j k 1).val = (k ⟨0, by decide⟩).val :=
  dot_S10000x64_S64x64_S10000x64_1_0_0_1_n_n.lhsIdx_val_of_single rfl j k
/-- and its right operand: row `k`, -/
theorem rhs_row (j : S10000x64.Idx) (k : dot_S10000x64_S64x64_S10000x64_1_0_0_1_n_n.contr.Idx) :
    (dot_S10000x64_S64x64_S10000x64_1_0_0_1_n_n.rhsIdx j k 0).val = (k ⟨0, by decide⟩).val :=
  dot_S10000x64_S64x64_S10000x64_1_0_0_1_n_n.rhsIdx_val_of_single rfl j k
/-- column `j 1`. -/
theorem rhs_col (j : S10000x64.Idx) (k : dot_S10000x64_S64x64_S10000x64_1_0_0_1_n_n.contr.Idx) :
    (dot_S10000x64_S64x64_S10000x64_1_0_0_1_n_n.rhsIdx j k 1).val = (j 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- The block product into a zero accumulator: entry `(p, q)` is the sum over the contracted axis of the left
    operand's row `p` times the right operand's column `q`, whatever the two operands are known to be there. -/
theorem product_apply (l : FVec Ideal S10000x64 .bf16) (r : FVec Ideal S64x64 .bf16) (p : Fin 10000) (q : Fin 64)
    (L R : Fin 64 → EReal) (hl : ∀ k, l (ix2 p k) = L k) (hr : ∀ k, r (ix2 k q) = R k) :
    FloatOps.matmul dot_S10000x64_S64x64_S10000x64_1_0_0_1_n_n none l r (constant S10000x64 .f32 0x00000000#32) (ix2 p q)
      = ∑ k : Fin 64, L k * R k := by
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k :=
    funext fun a => Fin.ext (by
      match a with
      | ⟨0, _⟩ => exact lhs_row _ _
      | ⟨1, _⟩ => exact (lhs_col _ _).trans hk)
  have er : dot_S10000x64_S64x64_S10000x64_1_0_0_1_n_n.rhsIdx (ix2 p q) ((contrEquiv1 dot_S10000x64_S64x64_S10000x64_1_0_0_1_n_n 64 rfl rfl).symm k) = ix2 k q :=
    funext fun a => Fin.ext (by
      match a with
      | ⟨0, _⟩ => exact (rhs_row _ _).trans hk
      | ⟨1, _⟩ => exact rhs_col _ _)
  rw [el, er, hl, hr]

/-- Entry `(p, q)` of the stored block, from the three loaded blocks. -/
theorem stored_apply (x : Vec Ideal S10000x64 .f32) (w : Vec Ideal S64x64 .f32) (b : Vec Ideal S1x64 .f32)
    (p : Fin 10000) (q : Fin 64) :
    k0_pay1 (F := Ideal) x w b (ix2 p q)
      = max ((∑ k : Fin 64, x (ix2 p k) * w (ix2 q k)) + b (ix2 0 q)) (Ideal.ofBits .f32 0x00000000#32) := by
  unfold k0_pay1
  simp only [shapeCast_self, matmul]
  rw [maximumf_apply, addf_apply, bias_rows_apply, broadcast_apply]
  refine congrArg (fun s => max (s + b (ix2 0 q)) (Ideal.ofBits .f32 0x00000000#32)) ?_
  exact product_apply _ _ p q (fun k => x (ix2 p k)) (fun k => w (ix2 q k)) (fun k => rfl)
    (fun k => transposed_apply _ k q)

end Cert.KernelIdeal.Entry

end
-- ==== Proof.KernelArray.lean ====
/-
  From the blocks to the whole result array.
  The grid has ten points; point `t` reads rows `10000·t … 10000·t + 9999` of the aggregate (all 64 columns), the
  whole weight matrix and the whole bias row, and writes back the same rows of the result. Reading the stored block
  entry by entry (`Entry.stored_apply`) and each input block where it sits in its array, what point `t` writes back
  is block `t` of ONE function of the arrays the region finds: the dense-and-rectify function. The ten blocks
  cover the result array (row `r` lies in the block of point `r / 10000`), so the array ends holding that function.
-/
import proofs.«118397_j3229815407284_1_alg».proof.Proof.Gen.KernelIdeal.Value
import proofs.«118397_j3229815407284_1_alg».proof.Proof.KernelEntry
import proofs.«118397_j3229815407284_1_alg».proof.Proof.DenseRelu

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.ValueIdx Cert.DenseRelu
open Idealize.ShloMosaic.Pipeline (Dat)

variable (m : (ℓ : Loc nD τ sig) → Buf (Elt Ideal) ℓ) (ρ : Dev nD → PrngReg)
/- The three arrays the input windows read, as variables: what they hold plays no part in how the blocks are laid out. -/
variable (A : S100000x64.Idx → EReal) (W : S64x64.Idx → EReal) (B : S1x64.Idx → EReal)

theorem zero_offsets : (![0, 0] : Fin 2 → Nat) = fun _ => 0 := funext fun a => by fin_cases a <;> rfl

/-- The printed index maps over the ten grid points: the aggregate's window and the result's both sit at block
    `(t, 0)`; the weights' and the bias row's stay at block `(0, 0)`. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the aggregate's block at point `t` is row `10000·t + p` of the aggregate. -/
theorem aggregate_block (t : Fin cfg0.N) (p : Fin 10000) (k : Fin 64) (r : Fin 100000)
    (hr : r.val = t.val * 10000 + p.val) :
    (((cfg0.win 0).blk t).view.read (Elt Ideal) A : Vec Ideal S10000x64 .f32) (ix2 p k) = A (ix2 r k) := by
  obtain ⟨e0, e1, -, -, -, -, -, -⟩ := block_indices t
  rw [View.read_apply]
  show A (((cfg0.win 0).blk t).view.emb (ix2 p k : S10000x64.Idx)) = A (ix2 r k)
  refine congrArg A (funext fun a => Fin.ext ?_)
  match a with
  | ⟨0, _⟩ => show win0_0.index t (0 : Fin 2) * 10000 + 1 * p.val = r.val; rw [e0, hr]; omega
  | ⟨1, _⟩ => show win0_0.index t (1 : Fin 2) * 64 + 1 * k.val = k.val; rw [e1]; omega

/-- The weights' block at every point is the whole weight matrix. -/
theorem weights_block (t : Fin cfg0.N) (q k : Fin 64) :
    (((cfg0.win 1).blk t).view.read (Elt Ideal) W : Vec Ideal S64x64 .f32) (ix2 q k) = W (ix2 q k) := by
  obtain ⟨-, -, e2, e3, -, -, -, -⟩ := block_indices t
  rw [View.read_apply]
  show W (((cfg0.win 1).blk t).view.emb (ix2 q k : S64x64.Idx)) = W (ix2 q k)
  refine congrArg W (funext fun a => Fin.ext ?_)
  match a with
  | ⟨0, _⟩ => show win0_1.index t (0 : Fin 2) * 64 + 1 * q.val = q.val; rw [e2]; omega
  | ⟨1, _⟩ => show win0_1.index t (1 : Fin 2) * 64 + 1 * k.val = k.val; rw [e3]; omega

/-- The bias row's block at every point is the whole row. -/
theorem bias_block (t : Fin cfg0.N) (q : Fin 64) :
    (((cfg0.win 2).blk t).view.read (Elt Ideal) B : Vec Ideal S1x64 .f32) (ix2 0 q) = B (ix2 0 q) := by
  obtain ⟨-, -, -, -, e4, e5, -, -⟩ := block_indices t
  rw [View.read_apply]
  show B (((cfg0.win 2).blk t).view.emb (ix2 0 q : S1x64.Idx)) = B (ix2 0 q)
  refine congrArg B (funext fun a => Fin.ext ?_)
  match a with
  | ⟨0, _⟩ => show win0_2.index t (0 : Fin 2) * 1 + 1 * 0 = 0; rw [e4]
  | ⟨1, _⟩ => show win0_2.index t (1 : Fin 2) * 64 + 1 * q.val = q.val; rw [e5]; omega

/-- What the body stores at point `t`, from the blocks of ANY three arrays there, is block `t` of the
    dense-and-rectify function of those arrays. -/
theorem stored_block (t : Fin cfg0.N) :
    (cfg0.win 3).cut (grid0.coords t) (out0_3 (((cfg0.win 0).blk t).view.read (Elt Ideal) A)
        (((cfg0.win 1).blk t).view.read (Elt Ideal) W) (((cfg0.win 2).blk t).view.read (Elt Ideal) B))
      = ((cfg0.win 3).blk t).view.read (Elt Ideal) (dense A W (rowAsVector B)) := by
  unfold out0_3
  rw [View.canon_unit_zero zero_offsets]
  simp only [View.ld_unit_zero (S := S10000x64) zero_offsets, View.ld_unit_zero (S := S64x64) zero_offsets,
    View.ld_unit_zero (S := S1x64) zero_offsets]
  obtain ⟨-, -, -, -, -, -, e6, e7⟩ := block_indices t
  have ht : t.val < 10 := by have h : t.val < grid0.N := t.isLt; have hN : grid0.N = 10 := N_0; omega
  refine funext fun (j : S10000x64.Idx) => ?_
  rw [View.read_apply]
  obtain ⟨p, q, rfl⟩ : ∃ (p : Fin 10000) (q : Fin 64), j = ix2 p q := ⟨j 0, j 1, eq_ix2 j⟩
  have hp : p.val < 10000 := p.isLt
  show k0_pay1 (((cfg0.win 0).blk t).view.read (Elt Ideal) A) (((cfg0.win 1).blk t).view.read (Elt Ideal) W)
      (((cfg0.win 2).blk t).view.read (Elt Ideal) B) (ix2 p q)
    = dense A W (rowAsVector B) (((cfg0.win 3).blk t).view.emb (ix2 p q : S10000x64.Idx))
  refine (Entry.stored_apply _ _ _ p q).trans ?_
  refine Eq.trans ?_ (dense_of_coords A W (rowAsVector B)
    (((cfg0.win 3).blk t).view.emb (ix2 p q : S10000x64.Idx)) ⟨t.val * 10000 + p.val, by omega⟩ q ?_ ?_).symm
  · unfold entry rowAsVector
    rw [bias_block B t q]
    refine congrArg (fun s => max (s + B (ix2 0 q)) (Ideal.ofBits .f32 0x00000000#32)) ?_
    refine Finset.sum_congr rfl fun k _ => ?_
    rw [aggregate_block A t p k ⟨t.val * 10000 + p.val, by omega⟩ rfl, weights_block W t q k]
  · show win0_3.index t (0 : Fin 2) * 10000 + 1 * p.val = t.val * 10000 + p.val; rw [e6]; omega
  · show win0_3.index t (1 : Fin 2) * 64 + 1 * q.val = q.val; rw [e7]; omega

/-- What point `t` writes back is block `t` of the dense-and-rectify function of the arrays the region finds. -/
theorem flushed_eq (c : Dev nD) (t : Fin cfg0.N) :
    (dats m 0 c).flushed 3 t = ((cfg0.win 3).blk t).view.read (Elt Ideal)
      (dense (V m c (Pipeline.arrRef spec0 0)) (V m c (Pipeline.arrRef spec0 1)) (rowAsVector (V m c (Pipeline.arrRef spec0 2)))) := by
  rw [flushed3]
  unfold iblk
  exact stored_block _ _ _ t

/-- An index of the result array is in point `t`'s block iff each coordinate is in the block's range on its axis. -/
theorem mem_block (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v15).slice (win0_3.rect t)).set ↔ _
  rw [View.set_slice_whole, Rect.mem_set_unit]
  exact Iff.rfl

/-- Every index of the result array lies in some point's block: row `r` in that of point `r / 10000`. -/
theorem covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : grid0.N = 10 := N_0
  obtain ⟨t, ht⟩ : ∃ t : Fin cfg0.N, t.val = (i 0).val / 10000 := ⟨⟨(i 0).val / 10000, by show _ < grid0.N; omega⟩, rfl⟩
  obtain ⟨-, -, -, -, -, -, e6, e7⟩ := block_indices t
  refine ⟨t, flush0_3 t, ?_⟩
  rw [mem_block]
  intro a
  match a with
  | ⟨0, _⟩ =>
    show win0_3.index t (0 : Fin 2) * 10000 ≤ (i 0).val ∧ (i 0).val < win0_3.index t (0 : Fin 2) * 10000 + 10000
    rw [e6, ht]; omega
  | ⟨1, _⟩ =>
    show win0_3.index t (1 : Fin 2) * 64 ≤ (i 1).val ∧ (i 1).val < win0_3.index t (1 : Fin 2) * 64 + 64
    rw [e7]; omega

/-- The result array after the run. -/
theorem final (c : Dev nD) :
    (dats m 0 c).arrAt 3 cfg0.N
      = dense (V m c (Pipeline.arrRef spec0 0)) (V m c (Pipeline.arrRef spec0 1)) (rowAsVector (V m c (Pipeline.arrRef spec0 2))) :=
  (dats m 0 c).arrAt_eq_of_cover 3 _ (fun t _ => flushed_eq m c t) covered

/-- The run, read: the result array at the dense-and-rectify function of the arrays the region finds, the arguments
    unchanged. -/
theorem run : θ_run defs (onTc (τ := τ) (main (F := Ideal))) ⟨m, fun _ => 0, ρ⟩ fun r => ∀ c : Dev nD,
      r.2.mem ((c : Thread nD τ).loc main_v15)
        = dense (V m c (Pipeline.arrRef spec0 0)) (V m c (Pipeline.arrRef spec0 1)) (rowAsVector (V m c (Pipeline.arrRef spec0 2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Blocks

end
-- ==== Proof.HostPrefix.lean ====
/-
  The three arrays the region's input windows read, as terms of the argument arrays.
  The aggregate is written on the host before the region by the same chain of operations the reference applies
  (split the edge list into destinations and sources, wrap negative sources, gather the source rows, scatter-add them
  into a zero array at the destination rows): it is named here by the reference's own stage and never opened.
  The weights are the argument itself. The bias row is the bias reshaped to [1, 64], whose entry `(0, n)` is the
  bias's entry `n`.
-/
import proofs.«118397_j3229815407284_1_alg».proof.Proof.Gen.KernelIdeal.Frame
import proofs.«118397_j3229815407284_1_alg».proof.Proof.Gen.ReferenceIdeal.Read
import proofs.«118397_j3229815407284_1_alg».proof.Proof.DenseRelu
import Idealize.ShloMosaic.Lib.StableHlo.Run
import Idealize.ShloMosaic.Lib.Pipeline.Value
import Idealize.ShloMosaic.Lib.ValueIdx

noncomputable section

namespace Cert.KernelIdeal.HostPrefix

open Cert.KernelIdeal Cert.KernelIdeal.Gen Idealize.ShloMosaic Idealize.ShloMosaic.TcCoe Idealize.SL.Sem
open Idealize.ShloMosaic.ValueIdx Idealize.ShloMosaic.StableHlo Cert.DenseRelu

variable (m : (ℓ : Loc nD τ sig) → Buf (Elt Ideal) ℓ)

/-- The aggregate the region finds is the reference's aggregate stage of the same two arguments. -/
theorem aggregate_eq (c : Dev nD) :
    (V m c (Pipeline.arrRef spec0 0) : S100000x64.Idx → EReal)
      = Cert.ReferenceIdeal.Read.val_main_v13 (F := Ideal) (m ((c : Thread nD τ).loc main_arg0)) (m ((c : Thread nD τ).loc main_arg1)) := by
  show (V m c main_v13 : S100000x64.Idx → EReal) = _
  dsimp only [Gen.V, Gen.hostOps0]
  after_results
  rfl

/-- The weights the region finds are the argument. -/
theorem weights_eq (c : Dev nD) :
    (V m c (Pipeline.arrRef spec0 1) : S64x64.Idx → EReal) = m ((c : Thread nD τ).loc main_arg2) :=
  V_main_arg2 m c

/-- The bias row the region finds is the bias reshaped to one row. -/
theorem bias_row_eq (c : Dev nD) :
    (V m c (Pipeline.arrRef spec0 2) : S1x64.Idx → EReal) = shapeCast S1x64 (m ((c : Thread nD τ).loc main_arg3)) shapeCasts_S64_S1x64 := by
  show (V m c main_v14 : S1x64.Idx → EReal) = _
  dsimp only [Gen.V, Gen.hostOps0]
  after_results
  rfl

/-- Read as a vector, the bias row the region finds is the bias. -/
theorem bias_eq (c : Dev nD) :
    rowAsVector (V m c (Pipeline.arrRef spec0 2)) = m ((c : Thread nD τ).loc main_arg3) := by
  rw [bias_row_eq]
  funext n
  obtain ⟨q, rfl⟩ : ∃ q : Fin 64, n = ix1 q := ⟨n 0, eq_ix1 n⟩
  unfold rowAsVector
  refine shapeCast_apply _ shapeCasts_S64_S1x64 (ix2 0 q) (ix1 q) ?_
  rewrite [Shape.rowMajor_val_two, Shape.rowMajor_val_one]
  show q.val = 0 * 64 + q.val
  omega

end Cert.KernelIdeal.HostPrefix

end
-- ==== Proof.lean ====
/-
  A graph layer: every node sums the feature rows of its in-neighbours (a gather of the source rows and a
  scatter-add into the destination rows, on the host in both programs), then a dense layer with a rectifier,
  `relu (aggr · Wᵀ + b)`. The kernel does the dense part block by block — ten blocks of 10000 rows, each a product
  with the transposed weights into a zero accumulator, plus the bias row, maximum with zero —; the reference does it
  with one whole product. On the extended reals the two are the same function of the same aggregate, entry by entry:

      out[r, n] = max (∑ₖ aggr[r, k] · W[n, k] + b[n]) 0,

  with no law used beyond reading each side at an index (the product into a zero accumulator is the bare sum, a
  change of float format is the identity), so the precondition is never opened.

  The modules: `DenseRelu` states the function; `ReferenceDense` reads the reference's last stage as it;
  `KernelEntry` reads one entry of what the kernel body stores; `KernelArray` lays the ten stored blocks over the
  result array; `HostPrefix` names the arrays the region finds (the aggregate by the reference's own stage, never
  opened). Here the two runs are set side by side.
-/
import proofs.«118397_j3229815407284_1_alg».proof.Defs
import proofs.«118397_j3229815407284_1_alg».proof.Proof.Gen.Kernel
import proofs.«118397_j3229815407284_1_alg».proof.Proof.Gen.Kernel.Skeleton
import proofs.«118397_j3229815407284_1_alg».proof.Proof.Gen.Kernel.Launch
import proofs.«118397_j3229815407284_1_alg».proof.Proof.Gen.Kernel.Points
import proofs.«118397_j3229815407284_1_alg».proof.Proof.Gen.Kernel.Frame
import proofs.«118397_j3229815407284_1_alg».proof.Proof.Gen.KernelIdeal
import proofs.«118397_j3229815407284_1_alg».proof.Proof.Gen.KernelIdeal.Skeleton
import proofs.«118397_j3229815407284_1_alg».proof.Proof.Gen.KernelIdeal.Launch
import proofs.«118397_j3229815407284_1_alg».proof.Proof.Gen.KernelIdeal.Points
import proofs.«118397_j3229815407284_1_alg».proof.Proof.Gen.KernelIdeal.Frame
import proofs.«118397_j3229815407284_1_alg».proof.Proof.Gen.KernelIdeal.Value
import proofs.«118397_j3229815407284_1_alg».proof.Proof.Gen.ReferenceIdeal
import proofs.«118397_j3229815407284_1_alg».proof.Proof.Gen.ReferenceIdeal.Run
import proofs.«118397_j3229815407284_1_alg».proof.Proof.Gen.ReferenceIdeal.Read
import proofs.«118397_j3229815407284_1_alg».proof.Proof.Gen.Pre_finite_inputs
import proofs.«118397_j3229815407284_1_alg».proof.Proof.DenseRelu
import proofs.«118397_j3229815407284_1_alg».proof.Proof.ReferenceDense
import proofs.«118397_j3229815407284_1_alg».proof.Proof.KernelArray
import proofs.«118397_j3229815407284_1_alg».proof.Proof.HostPrefix
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the result array at the dense-and-rectify function of the reference's aggregate stage, the
    weights and the bias: the kernel's by the ten blocks laid over the array and the arrays the region finds, the
    reference's by reading its last stage index by index; the arguments agree. -/
theorem algebraic : Cert.algebraic_KernelIdeal_ReferenceIdeal := by
  intro m ρ m' ρ' _ hagree
  refine ⟨fun c => Cert.DenseRelu.dense
      (Cert.ReferenceIdeal.Read.val_main_v13 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.Blocks.run m ρ)
    rw [Cert.KernelIdeal.HostPrefix.aggregate_eq, Cert.KernelIdeal.HostPrefix.weights_eq,
      Cert.KernelIdeal.HostPrefix.bias_eq]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v19_eq, Cert.ReferenceIdeal.Dense.result_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
